-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x256 : Shape := ⟨2, ![16, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x256 : S_.BroadcastsInDim S16x256 (![] : Fin 0 → Fin S16x256.rank)
  reducesTo_S16x256_S_d0_1 : S16x256.ReducesTo [0, 1] S_

variable [Facts]

def fn {F : FTy → Type} [FloatOps F] (main_arg0 : FVec F S16x2048x256 .f32) (main_arg1 : FVec F S16x256 .f32) (main_arg2 : FVec F S16x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  main_v13
-- ==== Kernel.lean ====
abbrev S16x2048x256 : Shape := ⟨3, ![16, 2048, 256]⟩
abbrev S16x256 : Shape := ⟨2, ![16, 256]⟩
abbrev S16x1x256 : Shape := ⟨3, ![16, 1, 256]⟩
abbrev S16x1x1 : Shape := ⟨3, ![16, 1, 1]⟩
abbrev S1x2048x256 : Shape := ⟨3, ![1, 2048, 256]⟩
abbrev S1x1x256 : Shape := ⟨3, ![1, 1, 256]⟩
abbrev S1x1x1 : Shape := ⟨3, ![1, 1, 1]⟩
abbrev S1x2048 : Shape := ⟨2, ![1, 2048]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x256, .f32⟩
  | .hbm, ⟨1, _⟩ => ⟨S16x256, .f32⟩
  | .hbm, ⟨2, _⟩ => ⟨S16x256, .f32⟩
  | .hbm, ⟨3, _⟩ => ⟨S16x1x256, .f32⟩
  | .hbm, ⟨4, _⟩ => ⟨S16x1x256, .f32⟩
  | .hbm, ⟨5, _⟩ => ⟨S16x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x2048x256, .f32⟩
  | .local _ .vmem, ⟨1, _⟩ => ⟨S1x2048x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x1, .f32⟩
  | .local _ .vmem, ⟨7, _⟩ => ⟨S1x1x1, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x256_S16x1x256 : S16x256.ShapeCasts S16x1x256
  inb_S1x2048x256_S1x2048x256_0_0_0 : ∀ a, (![0, 0, 0] : Fin 3 → Nat) a + S1x2048x256.size a ≤ S1x2048x256.size a
  h_S1x2048x256 : 0 < S1x2048x256.numel
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  broadcasts_S1x1x256_S1x2048x256 : S1x1x256.Broadcasts S1x2048x256
  reduces_S1x2048x256_S1x2048 : S1x2048x256.Reduces [2] S1x2048
  reduces_S1x2048_S1 : S1x2048.Reduces [1] S1
  shapeCasts_S1_S1x1x1 : S1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S16x1x1_S_d0_1_2 : S16x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S16x1x256.size a
  hwx0_1 : ∀ i : grid0.Coords, EltTy.bits .f32 = 32 ∨ (Rect.block (s := S16x1x256) S1x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S16x1x1.size a
  hwx0_3 : ∀ i : grid0.Coords, EltTy.bits .f32 = 32 ∨ (Rect.block (s := S16x1x1) S1x1x1.size (cc0_transform_3 i) (hinb0_3 i)).WholeWords (EltTy.packing .f32)

variable [Facts₀]

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x256 : Shape := ⟨2, ![16, 256]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S16 : Shape := ⟨1, ![16]⟩
abbrev S16x1x256 : Shape := ⟨3, ![16, 1, 256]⟩

abbrev nBuf : Space → Nat
  | .hbm => 107
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x256, .f32⟩
  | .hbm, ⟨2, _⟩ => ⟨S16x256, .f32⟩
  | .hbm, ⟨3, _⟩ => ⟨S16x2048x256, .f32⟩
  | .hbm, ⟨4, _⟩ => ⟨S_, .f32⟩
  | .hbm, ⟨5, _⟩ => ⟨S16x2048, .f32⟩
  | .hbm, ⟨6, _⟩ => ⟨S16x2048x2048, .f32⟩
  | .hbm, ⟨7, _⟩ => ⟨S16x2048x1, .f32⟩
  | .hbm, ⟨8, _⟩ => ⟨S16x1x2048, .f32⟩
  | .hbm, ⟨9, _⟩ => ⟨S16x2048x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048x2048, .f32⟩
  | .hbm, ⟨21, _⟩ => ⟨S16x2048x2048, .i1⟩
  | .hbm, ⟨22, _⟩ => ⟨S_, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S16x2048x2048, .f32⟩
  | .hbm, ⟨27, _⟩ => ⟨S_, .f32⟩
  | .hbm, ⟨28, _⟩ => ⟨S_, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16x1x256, .f32⟩
  | .hbm, ⟨37, _⟩ => ⟨S16x2048x256, .f32⟩
  | .hbm, ⟨38, _⟩ => ⟨S16x2048x256, .f32⟩
  | .hbm, ⟨39, _⟩ => ⟨S16x2048x256, .f32⟩
  | .hbm, ⟨40, _⟩ => ⟨S_, .f32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | .hbm, ⟨45, _⟩ => ⟨S_, .f32⟩
  | .hbm, ⟨46, _⟩ => ⟨S16x2048, .f32⟩
  | .hbm, ⟨47, _⟩ => ⟨S16x2048, .i1⟩
  | .hbm, ⟨48, _⟩ => ⟨S_, .f32⟩
  | .hbm, ⟨49, _⟩ => ⟨S_, .f32⟩
  | .hbm, ⟨50, _⟩ => ⟨S16x2048, .f32⟩
  | .hbm, ⟨51, _⟩ => ⟨S16x2048, .f32⟩
  | .hbm, ⟨52, _⟩ => ⟨S16x2048, .f32⟩
  | .hbm, ⟨53, _⟩ => ⟨S_, .f32⟩
  | .hbm, ⟨54, _⟩ => ⟨S_, .f32⟩
  | .hbm, ⟨55, _⟩ => ⟨S16x2048, .f32⟩
  | .hbm, ⟨56, _⟩ => ⟨S16x2048, .f32⟩
  | .hbm, ⟨57, _⟩ => ⟨S_, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16, .f32⟩
  | .hbm, ⟨66, _⟩ => ⟨S16x1x256, .f32⟩
  | .hbm, ⟨67, _⟩ => ⟨S16x2048x256, .f32⟩
  | .hbm, ⟨68, _⟩ => ⟨S16x2048x256, .f32⟩
  | .hbm, ⟨69, _⟩ => ⟨S16x2048x256, .f32⟩
  | .hbm, ⟨70, _⟩ => ⟨S_, .f32⟩
  | .hbm, ⟨71, _⟩ => ⟨S16x2048, .f32⟩
  | .hbm, ⟨72, _⟩ => ⟨S_, .f32⟩
  | .hbm, ⟨73, _⟩ => ⟨S16x2048, .f32⟩
  | .hbm, ⟨74, _⟩ => ⟨S16x2048, .f32⟩
  | .hbm, ⟨75, _⟩ => ⟨S_, .f32⟩
  | .hbm, ⟨76, _⟩ => ⟨S16x2048, .f32⟩
  | .hbm, ⟨77, _⟩ => ⟨S16x2048, .i1⟩
  | .hbm, ⟨78, _⟩ => ⟨S_, .f32⟩
  | .hbm, ⟨79, _⟩ => ⟨S_, .f32⟩
  | .hbm, ⟨80, _⟩ => ⟨S16x2048, .f32⟩
  | .hbm, ⟨81, _⟩ => ⟨S16x2048, .f32⟩
  | .hbm, ⟨82, _⟩ => ⟨S16x2048, .f32⟩
  | .hbm, ⟨83, _⟩ => ⟨S_, .f32⟩
  | .hbm, ⟨84, _⟩ => ⟨S_, .f32⟩
  | .hbm, ⟨85, _⟩ => ⟨S16x2048, .f32⟩
  | .hbm, ⟨86, _⟩ => ⟨S16x2048, .f32⟩
  | .hbm, ⟨87, _⟩ => ⟨S_, .f32⟩
  | .hbm, ⟨88, _⟩ => ⟨S16, .f32⟩
  | .hbm, ⟨89, _⟩ => ⟨S_, .f32⟩
  | .hbm, ⟨90, _⟩ => ⟨S16, .f32⟩
  | .hbm, ⟨91, _⟩ => ⟨S16, .f32⟩
  | .hbm, ⟨92, _⟩ => ⟨S_, .f32⟩
  | .hbm, ⟨93, _⟩ => ⟨S16, .f32⟩
  | .hbm, ⟨94, _⟩ => ⟨S16, .f32⟩
  | .hbm, ⟨95, _⟩ => ⟨S16, .f32⟩
  | .hbm, ⟨96, _⟩ => ⟨S16, .f32⟩
  | .hbm, ⟨97, _⟩ => ⟨S_, .f32⟩
  | .hbm, ⟨98, _⟩ => ⟨S16, .f32⟩
  | .hbm, ⟨99, _⟩ => ⟨S16, .f32⟩
  | .hbm, ⟨100, _⟩ => ⟨S_, .f32⟩
  | .hbm, ⟨101, _⟩ => ⟨S16, .f32⟩
  | .hbm, ⟨102, _⟩ => ⟨S16, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_call2_v0 : Ref sig .tc := ⟨.hbm, 49, rfl⟩
abbrev main_call2_v1 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_call3_v0 : Ref sig .tc := ⟨.hbm, 54, rfl⟩
abbrev main_call3_v1 : Ref sig .tc := ⟨.hbm, 55, rfl⟩
abbrev main_v32 : Ref sig .tc := ⟨.hbm, 56, rfl⟩
abbrev main_cst_12 : Ref sig .tc := ⟨.hbm, 57, rfl⟩
abbrev main_v33 : Ref sig .tc := ⟨.hbm, 58, rfl⟩
abbrev main_cst_13 : Ref sig .tc := ⟨.hbm, 59, rfl⟩
abbrev main_v34 : Ref sig .tc := ⟨.hbm, 60, rfl⟩
abbrev main_v35 : Ref sig .tc := ⟨.hbm, 61, rfl⟩
abbrev main_cst_14 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_cst_16 : Ref sig .tc := ⟨.hbm, 72, rfl⟩
abbrev main_v44 : Ref sig .tc := ⟨.hbm, 73, rfl⟩
abbrev main_v45 : Ref sig .tc := ⟨.hbm, 74, rfl⟩
abbrev main_cst_17 : Ref sig .tc := ⟨.hbm, 75, rfl⟩
abbrev main_v46 : Ref sig .tc := ⟨.hbm, 76, rfl⟩
abbrev main_v47 : Ref sig .tc := ⟨.hbm, 77, rfl⟩
abbrev main_cst_18 : Ref sig .tc := ⟨.hbm, 78, rfl⟩
abbrev main_call4_v0 : Ref sig .tc := ⟨.hbm, 79, rfl⟩
abbrev main_call4_v1 : Ref sig .tc := ⟨.hbm, 80, rfl⟩
abbrev main_v48 : Ref sig .tc := ⟨.hbm, 81, rfl⟩
abbrev main_v49 : Ref sig .tc := ⟨.hbm, 82, rfl⟩
abbrev main_cst_19 : Ref sig .tc := ⟨.hbm, 83, rfl⟩
abbrev main_call5_v0 : Ref sig .tc := ⟨.hbm, 84, rfl⟩
abbrev main_call5_v1 : Ref sig .tc := ⟨.hbm, 85, rfl⟩
abbrev main_v50 : Ref sig .tc := ⟨.hbm, 86, rfl⟩
abbrev main_cst_20 : Ref sig .tc := ⟨.hbm, 87, rfl⟩
abbrev main_v51 : Ref sig .tc := ⟨.hbm, 88, rfl⟩
abbrev main_cst_21 : Ref sig .tc := ⟨.hbm, 89, rfl⟩
abbrev main_v52 : Ref sig .tc := ⟨.hbm, 90, rfl⟩
abbrev main_v53 : Ref sig .tc := ⟨.hbm, 91, rfl⟩
abbrev main_cst_22 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_23 : Ref sig .tc := ⟨.hbm, 97, rfl⟩
abbrev main_v58 : Ref sig .tc := ⟨.hbm, 98, rfl⟩
abbrev main_v59 : Ref sig .tc := ⟨.hbm, 99, rfl⟩
abbrev main_call6_cst : Ref sig .tc := ⟨.hbm, 100, rfl⟩
abbrev main_call6_v0 : Ref sig .tc := ⟨.hbm, 101, rfl⟩
abbrev main_v60 : Ref sig .tc := ⟨.hbm, 102, rfl⟩
abbrev main_cst_24 : Ref sig .tc := ⟨.hbm, 103, rfl⟩
abbrev main_v61 : Ref sig .tc := ⟨.hbm, 104, rfl⟩
abbrev main_cst_25 : Ref sig .tc := ⟨.hbm, 105, rfl⟩
abbrev main_v62 : Ref sig .tc := ⟨.hbm, 106, rfl⟩

abbrev nD : Nat := 1
abbrev τ : Topo := Topo.v7x

variable {F : FTy → Type} [FloatOps F]

class Facts₀ : Prop where
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16_d1_2 : S16x2048x2048.ReducesTo [1, 2] S16
  bcast_S_S16 : S_.BroadcastsInDim S16 (![] : Fin 0 → Fin S16.rank)
  bcast_S16x256_S16x1x256_0_2 : S16x256.BroadcastsInDim S16x1x256 (![0, 2] : Fin 2 → Fin S16x1x256.rank)
  bcast_S16x1x256_S16x2048x256_0_1_2 : S16x1x256.BroadcastsInDim S16x2048x256 (![0, 1, 2] : Fin 3 → Fin S16x2048x256.rank)
  bcast_S_S16x2048 : S_.BroadcastsInDim S16x2048 (![] : Fin 0 → Fin S16x2048.rank)
  reducesTo_S16x2048_S16_d1 : S16x2048.ReducesTo [1] S16
  reducesTo_S16_S_d0 : S16.ReducesTo [0] S_
  dot_S16x2048x256_S16x2048x256_S16x2048x2048_2_2_1_1_0_0_wf : DotDims.WF S16x2048x256 S16x2048x256 S16x2048x2048 [2] [2] [1] [1] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf

class Facts : Prop extends Facts₀ where

variable [Facts]
-- ==== Proof.EnergyHinge.lean ====
/-
  The mathematics, free of any program. For one batch element, with rows x_r (r < 2048) in R^256 and two
  points p, q in R^256:

    crossEnergy x y = (2 * sum_r ||x_r - y||) / 2048        (twice the mean distance from the rows to y)
    hinge x p q     = max (crossEnergy x p - crossEnergy x q + 5) 0

  and the result is the mean of the hinge over the 16 batch elements. All of it is read on the extended
  reals, where the norm is the square root of a sum of squares.

  Three facts join the two programs.
  * A square is nonnegative on the extended reals (also at the infinities), hence so is a sum of squares.
  * On a nonnegative argument the guarded square root "zero where the argument is not positive, else the root
    of the argument" is the plain square root, because the root of zero is zero.
  * Subtracting one and the same REAL number e from two extended reals does not change their difference:
    (a - e) - (b - e) = a - b. This fails for infinite e, which is why finiteness of the self-energy is needed.
  The last part is a small calculus of "is a real number", closed under the operations that build the
  self-energy.
-/
import Idealize.ShloMosaic.PureOps.Ideal.Laws
import Idealize.ShloMosaic.Lib.ValueIdx

noncomputable section

namespace Cert.EnergyHinge

open Idealize.ShloMosaic Idealize.ShloMosaic.ValueIdx

/-! ## The specification -/

/-- The squared distance from row r of x to y. -/
def sqDist (x : Fin 2048 → Fin 256 → EReal) (y : Fin 256 → EReal) (r : Fin 2048) : EReal :=
  ∑ d : Fin 256, (x r d - y d) * (x r d - y d)

/-- Twice the mean distance from the rows of x to y. -/
def crossEnergy (x : Fin 2048 → Fin 256 → EReal) (y : Fin 256 → EReal) : EReal :=
  Ideal.div (Ideal.ofBits .f32 0x40000000#32 * ∑ r : Fin 2048, Ideal.sqrt (sqDist x y r)) (Ideal.ofBits .f32 0x45000000#32)

/-- The margin loss of one batch element. -/
def hinge (x : Fin 2048 → Fin 256 → EReal) (p q : Fin 256 → EReal) : EReal :=
  max (crossEnergy x p - crossEnergy x q + Ideal.ofBits .f32 0x40A00000#32) 0

/-- The mean of the margin loss over the batch. -/
def meanHinge (X : (⟨3, ![16, 2048, 256]⟩ : Shape).Idx → EReal) (P Q : (⟨2, ![16, 256]⟩ : Shape).Idx → EReal) : EReal :=
  Ideal.div (∑ b : Fin 16, hinge (fun r d => X (ix3 b r d)) (fun d => P (ix2 b d)) (fun d => Q (ix2 b d)))
    (Ideal.ofBits .f32 0x41800000#32)

/-! ## Squares and the guarded square root -/

theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (_root_.mul_self_nonneg r)

theorem sqDist_nonneg (x : Fin 2048 → Fin 256 → EReal) (y : Fin 256 → EReal) (r : Fin 2048) : 0 ≤ sqDist x y r :=
  Finset.sum_nonneg fun d _ => mul_self_nonneg _

theorem sqrt_zero : Ideal.sqrt 0 = 0 := by
  rw [← EReal.coe_zero, Ideal.sqrt_coe]; simp

/-- The guarded root is the root, on a nonnegative argument; the substitute `one` is never looked at. -/
theorem guardedSqrt_eq (a one : EReal) (h : 0 ≤ a) :
    Scalar.select (Ideal.cmp .ogt (max a 0) 0)
      (Ideal.sqrt (Scalar.select (Ideal.cmp .ogt (max a 0) 0) (max a 0) one)) 0 = Ideal.sqrt a := by
  rw [max_eq_left h]
  by_cases hpos : 0 < a
  · have hc : Ideal.cmp .ogt a 0 = 1#1 := by simp [Ideal.cmp, hpos]
    rw [hc, select_one, select_one]
  · have ha : a = 0 := le_antisymm (not_lt.mp hpos) h
    subst ha
    have hc : Ideal.cmp .ogt (0 : EReal) 0 = 0#1 := by simp [Ideal.cmp]
    rw [hc, select_zero, sqrt_zero]

/-! ## Cancelling a real -/

theorem sub_real_sub_sub_real (a b : EReal) (e : ℝ) : (a - (e : EReal)) - (b - (e : EReal)) = a - b := by
  induction a using EReal.rec with
  | bot =>
    induction b using EReal.rec with
    | bot => simp
    | top => simp
    | coe s => simp [← EReal.coe_sub]
  | top =>
    induction b using EReal.rec with
    | bot => simp
    | top => simp
    | coe s => simp [← EReal.coe_sub]
  | coe r =>
    induction b using EReal.rec with
    | bot => simp [← EReal.coe_sub]
    | top => simp [← EReal.coe_sub]
    | coe s => rw [← EReal.coe_sub, ← EReal.coe_sub, ← EReal.coe_sub, ← EReal.coe_sub]; congr 1; ring

/-! ## Being a real number -/

/-- The extended real a is a real number. -/
def IsReal (a : EReal) : Prop := ∃ r : ℝ, a = (r : EReal)

/-- ... and nonnegative. -/
def IsNonnegReal (a : EReal) : Prop := ∃ r : ℝ, 0 ≤ r ∧ a = (r : EReal)

theorem IsNonnegReal.isReal {a : EReal} (h : IsNonnegReal a) : IsReal a := let ⟨r, _, e⟩ := h; ⟨r, e⟩

theorem isReal_coe (r : ℝ) : IsReal (r : EReal) := ⟨r, rfl⟩
theorem isReal_zero : IsReal 0 := ⟨0, rfl⟩
theorem isNonnegReal_zero : IsNonnegReal 0 := ⟨0, le_rfl, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The larger of a real and zero is a nonnegative real. -/
theorem IsReal.max_zero {a : EReal} (ha : IsReal a) : IsNonnegReal (max a 0) := by
  obtain ⟨r, rfl⟩ := ha
  refine ⟨max r 0, le_max_right r 0, ?_⟩
  rw [← EReal.coe_zero]
  exact (EReal.coe_strictMono.monotone.map_max).symm

/-- The root of a nonnegative real is a real. -/
theorem IsNonnegReal.sqrt {a : EReal} (ha : IsNonnegReal a) : IsReal (Ideal.sqrt a) := by
  obtain ⟨r, hr, rfl⟩ := ha
  exact ⟨Real.sqrt r, by rw [Ideal.sqrt_coe, if_neg (not_lt.mpr hr)]⟩

/-- A choice between two reals is a real. -/
theorem IsReal.select (c : BitVec 1) {a b : EReal} (ha : IsReal a) (hb : IsReal b) : IsReal (Scalar.select c a b) := by
  unfold Scalar.select; split <;> assumption
theorem IsNonnegReal.select (c : BitVec 1) {a b : EReal} (ha : IsNonnegReal a) (hb : IsNonnegReal b) :
    IsNonnegReal (Scalar.select c a b) := by
  unfold Scalar.select; split <;> assumption

/-- The quotient of a real by a nonzero real is a real. -/
theorem IsReal.div_coe {a : EReal} (ha : IsReal a) {s : ℝ} (hs : s ≠ 0) : IsReal (Ideal.div a (s : EReal)) := by
  rw [Ideal.div_coe hs]; exact ha.mul (isReal_coe _)

end Cert.EnergyHinge

end
-- ==== Proof.Literals.lean ====
/-
  The float literals whose VALUES the argument uses, as the extended reals their patterns denote at the
  ideal instance. Only these are ever evaluated: zero (the sums' initial value and the threshold of the
  guarded square root), one (the guard's substitute under the root), two (the factor of the Gram term) and
  2^22 = 2048 * 2048 (the divisor of the pairwise mean); and plus infinity, the bound of the precondition.
  Every other literal occurs as the same word on both sides and is never opened.
-/
import Idealize.ShloMosaic.PureOps.Ideal

noncomputable section

namespace Cert.Literals

open Idealize.ShloMosaic

theorem zero : Ideal.ofBits .f32 0x00000000#32 = 0 := by
  simp [Ideal.ofBits, Ideal.ieee]

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The pattern the precondition compares absolute values with is plus infinity. -/
theorem inf : Ideal.ofBits .f32 0x7F800000#32 = ⊤ := by
  simp [Ideal.ofBits, Ideal.ieee]

/-- 2^22, the number of ordered pairs of the 2048 rows. -/
theorem pairs : Ideal.ofBits .f32 0x4A800000#32 = ((4194304 : ℝ) : EReal) := by
  simp [Ideal.ofBits, Ideal.ieee, -EReal.coe_mul]; norm_num

end Cert.Literals

end
-- ==== Proof.RefCross.lean ====
/-
  The reference's cross-energy. For each of the two points (the positive and the negative one) the reference
  subtracts the point from every row, squares, sums over the 256 coordinates, takes the guarded square root,
  sums over the 2048 rows, doubles and divides by 2048. Read at batch element b this is `crossEnergy` of the
  slab of rows of b and the point of b: the sum of squares is nonnegative, so the guard never changes the root.
-/
import proofs.«150309_j84490596647160_1_alg».proof.Proof.Gen.ReferenceIdeal.Read
import proofs.«150309_j84490596647160_1_alg».proof.Proof.EnergyHinge
import proofs.«150309_j84490596647160_1_alg».proof.Proof.Literals

noncomputable section

namespace Cert.ReferenceIdeal.RefValue

open Cert.ReferenceIdeal Cert.ReferenceIdeal.Read Idealize.ShloMosaic Idealize.ShloMosaic.ValueIdx Cert.EnergyHinge

/-- The type of the anchor array, and of each point array, at the ideal instance. -/
abbrev Arr3 : Type := (⟨S16x2048x256, .f32⟩ : BufTy).Contents (Elt Ideal)
abbrev Arr2 : Type := (⟨S16x256, .f32⟩ : BufTy).Contents (Elt Ideal)

/-- The rows of batch element b. -/
abbrev slab (X : Arr3) (b : Fin 16) : Fin 2048 → Fin 256 → EReal := fun r d => X (ix3 b r d)
/-- The point of batch element b. -/
abbrev point (P : Arr2) (b : Fin 16) : Fin 256 → EReal := fun d => P (ix2 b d)

theorem idx_sum256 (b : Fin 16) (r : Fin 2048) (k : Fin 256) : idx_main_v25 (ix2 b r) k = ix3 b r k :=
  funext fun a => Fin.ext (by match a with | ⟨0, _⟩ => rfl | ⟨1, _⟩ => rfl | ⟨2, _⟩ => rfl)
theorem idx_point (b : Fin 16) (r : Fin 2048) (k : Fin 256) : idx_main_v21 (idx_main_v22 (ix3 b r k)) = ix2 b k :=
  funext fun a => Fin.ext (by match a with | ⟨0, _⟩ => rfl | ⟨1, _⟩ => rfl)
theorem idx_sum2048 (b : Fin 16) (k : Fin 2048) : idx_main_v33 (ix1 b) k = ix2 b k :=
  funext fun a => Fin.ext (by match a with | ⟨0, _⟩ => rfl | ⟨1, _⟩ => rfl)

/-- The sum of squares over the coordinates. -/
theorem sumSquares_eq (X : Arr3) (P : Arr2) (b : Fin 16) (r : Fin 2048) :
    val_main_v25 (F := Ideal) X P (ix2 b r) = sqDist (slab X b) (point P b) r := by
  rw [val_main_v25_apply]
  simp only [idx_sum256, val_main_v24_apply, val_main_v23_apply, val_main_v22_apply, val_main_v21_apply, idx_point,
    val_main_cst_7_apply, Ideal.ofBits_def, Literals.zero, zero_add, Ideal.mulf_def, Ideal.subf_def]
  rfl

/-- The guarded root of it is the distance. -/
theorem dist_eq (X : Arr3) (P : Arr2) (b : Fin 16) (r : Fin 2048) :
    val_main_v32 (F := Ideal) X P (ix2 b r) = Ideal.sqrt (sqDist (slab X b) (point P b) r) := by
  rw [val_main_v32_apply, val_main_v31_apply, val_main_v30_apply, val_main_v29_apply, val_main_v27_apply,
    val_main_v26_apply, val_main_v28_apply, val_main_call3_v1_apply, val_main_call3_v0_apply, sumSquares_eq]
  simp only [val_main_cst_8_apply, val_main_cst_9_apply, val_main_cst_11_apply, Ideal.ofBits_def, Literals.zero,
    Ideal.maximumf_def, Ideal.hostUnary_sqrt_def, Ideal.cmpf_def]
  exact guardedSqrt_eq _ _ (sqDist_nonneg _ _ _)

/-- Twice the mean distance to the positive point. -/
theorem crossPos_eq (X : Arr3) (P : Arr2) (b : Fin 16) :
    val_main_v37 (F := Ideal) X P (ix1 b) = crossEnergy (slab X b) (point P b) := by
  rw [val_main_v37_apply, val_main_v35_apply, val_main_v33_apply, val_main_v34_apply, val_main_v36_apply]
  simp only [idx_sum2048, dist_eq, val_main_cst_12_apply, val_main_cst_13_apply, val_main_cst_14_apply, Ideal.ofBits_def,
    Literals.zero, zero_add, Ideal.mulf_def, Ideal.hostDivf_def]
  rfl

/-- The negative point goes through the same operations under other names. -/
theorem crossNeg_eq_crossPos (X : Arr3) (Q : Arr2) : val_main_v55 (F := Ideal) X Q = val_main_v37 (F := Ideal) X Q := rfl

theorem crossNeg_eq (X : Arr3) (Q : Arr2) (b : Fin 16) :
    val_main_v55 (F := Ideal) X Q (ix1 b) = crossEnergy (slab X b) (point Q b) := by
  rw [crossNeg_eq_crossPos, crossPos_eq]

end Cert.ReferenceIdeal.RefValue

end
-- ==== Proof.RefSelfEnergy.lean ====
/-
  The reference's self-energy is a real number. For batch element b it is the mean, over the 2048 * 2048 ordered
  pairs of rows, of the guarded square root of |x_m|^2 + |x_n|^2 - 2 <x_m, x_n>. Its VALUE never enters the
  argument: it is subtracted from both cross-energies and cancels, and for that only one thing is needed, that
  it is finite. Every stage below is a real number as soon as the entries of x are: products, finite sums and
  differences of reals are reals; the larger of a real and zero is a nonnegative real, and so is the
  guard's substitute 1; the root of a nonnegative real is a real; and the divisor 2^22 is a nonzero real.
  A stage that only rearranges (a broadcast) reads a real because every entry it can read is one.
-/
import proofs.«150309_j84490596647160_1_alg».proof.Proof.Gen.ReferenceIdeal.Read
import proofs.«150309_j84490596647160_1_alg».proof.Proof.EnergyHinge
import proofs.«150309_j84490596647160_1_alg».proof.Proof.Literals

noncomputable section

namespace Cert.ReferenceIdeal.SelfEnergy

open Cert.ReferenceIdeal Cert.ReferenceIdeal.Read Idealize.ShloMosaic Idealize.ShloMosaic.ValueIdx Cert.EnergyHinge

abbrev Arr3 : Type := (⟨S16x2048x256, .f32⟩ : BufTy).Contents (Elt Ideal)

theorem real_zeroLit : IsReal (FloatOps.ofBits (F := Ideal) .f32 0x00000000#32) := by
  rw [Ideal.ofBits_def, Literals.zero]; exact isReal_zero
theorem nonneg_zeroLit : IsNonnegReal (FloatOps.ofBits (F := Ideal) .f32 0x00000000#32) := by
  rw [Ideal.ofBits_def, Literals.zero]; exact isNonnegReal_zero
theorem nonneg_oneLit : IsNonnegReal (FloatOps.ofBits (F := Ideal) .f32 0x3F800000#32) := by
  rw [Ideal.ofBits_def, Literals.one]; exact ⟨1, zero_le_one, rfl⟩
theorem real_twoLit : IsReal (FloatOps.ofBits (F := Ideal) .f32 0x40000000#32) := by
  rw [Ideal.ofBits_def, Literals.two]; exact isReal_coe _

variable (X : Arr3) (hX : ∀ i, IsReal (X i))
include hX

/-- The squares of the entries. -/
theorem real_sq (i) : IsReal (val_main_v0 (F := Ideal) X i) := by
  rw [val_main_v0_apply]; exact (hX i).mul (hX i)

/-- |x_m|^2. -/
theorem real_norm2 (i) : IsReal (val_main_v1 (F := Ideal) X i) := by
  rw [val_main_v1_apply, val_main_cst_apply]
  exact real_zeroLit.add (IsReal.sum _ _ fun k _ => real_sq X hX _)

/-- <x_m, x_n>. -/
theorem real_gram (i) : IsReal (val_main_v2 (F := Ideal) X i) := by
  rw [val_main_v2_apply]
  exact IsReal.sum _ _ fun k _ => (hX _).mul (hX _)

/-- |x_m|^2 + |x_n|^2 - 2 <x_m, x_n>. -/
theorem real_d2 (i) : IsReal (val_main_v10 (F := Ideal) X i) := by
  rw [val_main_v10_apply, val_main_v7_apply, val_main_v5_apply, val_main_v6_apply, val_main_v3_apply, val_main_v4_apply,
    val_main_v9_apply, val_main_v8_apply, val_main_cst_0_apply]
  exact ((real_norm2 X hX _).add (real_norm2 X hX _)).sub (real_twoLit.mul (real_gram X hX _))

/-- Its larger with zero. -/
theorem nonneg_d2 (i) : IsNonnegReal (val_main_v12 (F := Ideal) X i) := by
  rw [val_main_v12_apply, val_main_v11_apply, val_main_cst_1_apply, Ideal.ofBits_def, Literals.zero]
  exact (real_d2 X hX i).max_zero

/-- What goes under the root: that, or 1 where it is not positive. -/
theorem nonneg_underRoot (i) : IsNonnegReal (val_main_v15 (F := Ideal) X i) := by
  rw [val_main_v15_apply, val_main_call0_v1_apply, val_main_call0_v0_apply, val_main_cst_3_apply]
  exact (nonneg_d2 X hX i).select _ nonneg_oneLit

/-- The guarded root. -/
theorem real_pairDist (i) : IsReal (val_main_v17 (F := Ideal) X i) := by
  rw [val_main_v17_apply, val_main_v16_apply, val_main_call1_v1_apply, val_main_call1_v0_apply, val_main_cst_4_apply,
    Ideal.hostUnary_sqrt_def]
  exact (nonneg_underRoot X hX i).sqrt.select _ real_zeroLit

/-- Its sum over the pairs of rows. -/
theorem real_pairSum (i) : IsReal (val_main_v18 (F := Ideal) X i) := by
  unfold val_main_v18
  simp only [Host.reduceAdd, Ideal.hostReduceAdd_def]
  unfold Ideal.hostReduceAdd
  rw [val_main_cst_5_apply]
  exact real_zeroLit.add (IsReal.sum _ _ fun j _ => real_pairDist X hX j)

/-- THE SELF-ENERGY of each batch element is a real number. -/
theorem real_selfEnergy (i) : IsReal (val_main_v20 (F := Ideal) X i) := by
  rw [val_main_v20_apply, val_main_v19_apply, val_main_cst_6_apply, Ideal.ofBits_def, Literals.pairs, Ideal.hostDivf_def]
  exact (real_pairSum X hX i).div_coe (by norm_num)

end Cert.ReferenceIdeal.SelfEnergy

end
-- ==== Proof.BatchSums.lean ====
/-
  A sum over the indices of a one-axis array of 16 entries, and over those of a [16, 1, 1] array, is the sum
  over the 16 batch elements: the other two axes have one coordinate each.
-/
import Idealize.ShloMosaic.Lib.ValueIdx
import Mathlib.Algebra.BigOperators.Group.Finset.Basic

noncomputable section

namespace Cert.BatchSums

open Idealize.ShloMosaic Idealize.ShloMosaic.ValueIdx

/-- The index of a one-axis array is its coordinate. -/
def batchOfIdx1 : (⟨1, ![16]⟩ : Shape).Idx ≃ Fin 16 where
  toFun j := j 0
  invFun b := ix1 b
  left_inv j := (eq_ix1 j).symm
  right_inv _ := rfl

theorem sum_idx1 {M : Type*} [AddCommMonoid M] (f : (⟨1, ![16]⟩ : Shape).Idx → M) : ∑ j, f j = ∑ b : Fin 16, f (ix1 b) :=
  Fintype.sum_equiv batchOfIdx1 f (fun b => f (ix1 b)) fun j => congrArg f (eq_ix1 j)

/-- An index of a [16, 1, 1] array is (b, 0, 0). -/
theorem eq_ix3_unit (j : (⟨3, ![16, 1, 1]⟩ : Shape).Idx) : j = ix3 (j 0) (0 : Fin 1) (0 : Fin 1) := by
  funext a
  match a with
  | ⟨0, _⟩ => rfl
  | ⟨1, _⟩ => exact Fin.ext (by have h : (j 1).val < 1 := (j 1).isLt; show (j 1).val = 0; omega)
  | ⟨2, _⟩ => exact Fin.ext (by have h : (j 2).val < 1 := (j 2).isLt; show (j 2).val = 0; omega)

def batchOfIdx3 : (⟨3, ![16, 1, 1]⟩ : Shape).Idx ≃ Fin 16 where
  toFun j := j 0
  invFun b := ix3 b (0 : Fin 1) (0 : Fin 1)
  left_inv j := (eq_ix3_unit j).symm
  right_inv _ := rfl

theorem sum_idx3_unit {M : Type*} [AddCommMonoid M] (f : (⟨3, ![16, 1, 1]⟩ : Shape).Idx → M) :
    ∑ j, f j = ∑ b : Fin 16, f (ix3 b (0 : Fin 1) (0 : Fin 1)) :=
  Fintype.sum_equiv batchOfIdx3 f (fun b => f (ix3 b (0 : Fin 1) (0 : Fin 1))) fun j => congrArg f (eq_ix3_unit j)

end Cert.BatchSums

end
-- ==== Proof.RefMean.lean ====
/-
  The reference's result is the mean hinge. Per batch element it computes
    max ((crossPos - e) - (crossNeg - e) + 5) 0
  with e the self-energy. When the entries of the anchor array are real numbers e is one too, so it cancels
  and what is left is the hinge of the two cross-energies. The mean over the batch is the initial value zero
  plus the sum over the 16 batch elements, divided by 16.
-/
import proofs.«150309_j84490596647160_1_alg».proof.Proof.RefCross
import proofs.«150309_j84490596647160_1_alg».proof.Proof.RefSelfEnergy
import proofs.«150309_j84490596647160_1_alg».proof.Proof.BatchSums

noncomputable section

namespace Cert.ReferenceIdeal.RefValue

open Cert.ReferenceIdeal Cert.ReferenceIdeal.Read Idealize.ShloMosaic Idealize.ShloMosaic.ValueIdx Cert.EnergyHinge

/-- The loss of batch element b: the self-energy, a real, cancels. -/
theorem hinge_eq (X : Arr3) (P Q : Arr2) (hX : ∀ i, IsReal (X i)) (b : Fin 16) :
    val_main_v60 (F := Ideal) X P Q (ix1 b) = hinge (slab X b) (point P b) (point Q b) := by
  rw [val_main_v60_apply, val_main_v59_apply, val_main_v57_apply, val_main_v38_apply, val_main_v56_apply,
    val_main_v58_apply, val_main_call6_v0_apply, crossPos_eq, crossNeg_eq]
  obtain ⟨e, he⟩ := SelfEnergy.real_selfEnergy X hX (ix1 b)
  rw [he]
  simp only [val_main_cst_23_apply, val_main_call6_cst_apply, Ideal.ofBits_def, Literals.zero, Ideal.subf_def,
    Ideal.addf_def, Ideal.maximumf_def]
  rw [sub_real_sub_sub_real]
  rfl

/-- THE REFERENCE'S RESULT, for an anchor array of real entries. -/
theorem result_eq (X : Arr3) (P Q : Arr2) (hX : ∀ i, IsReal (X i)) :
    val_main_v62 (F := Ideal) X P Q = fun _ => meanHinge X P Q := by
  funext i
  rw [val_main_v62_apply, val_main_v61_apply, val_main_cst_24_apply, val_main_cst_25_apply, BatchSums.sum_idx1]
  simp only [hinge_eq X P Q hX, Ideal.ofBits_def, Literals.zero, zero_add, Ideal.hostDivf_def]
  rfl

end Cert.ReferenceIdeal.RefValue

end
-- ==== Proof.FiniteAnchor.lean ====
/-
  What the precondition gives. It is the conjunction of three "every absolute value is below plus infinity",
  one per input array. Only the first is used: every entry of the anchor array is an extended real whose
  absolute value max(a, -a) is below plus infinity, so it is neither infinity, so it is a real number.
-/
import proofs.«150309_j84490596647160_1_alg».proof.Pre_finite_inputs
import Idealize.ShloMosaic.Lib.ReduceAll
import Idealize.ShloMosaic.Lib.ValueIdx
import proofs.«150309_j84490596647160_1_alg».proof.Proof.EnergyHinge
import proofs.«150309_j84490596647160_1_alg».proof.Proof.Literals

noncomputable section

namespace Cert.Pre_finite_inputs.Finite

open Idealize.ShloMosaic Idealize.ShloMosaic.ValueIdx Cert.EnergyHinge Cert.Pre_finite_inputs

variable [Facts]
open Facts

instance : Subsingleton S_.Idx := ⟨fun a b => funext fun d => d.elim0⟩

/-- An extended real whose absolute value is below plus infinity is a real number. -/
theorem isReal_of_abs_lt_top (a : EReal) (h : max a (-a) < ⊤) : IsReal a := by
  induction a using EReal.rec with
  | bot => exact absurd h (by simp)
  | top => exact absurd h (by simp)
  | coe r => exact isReal_coe r

/-- Under the precondition every entry of the anchor array is a real number. -/
theorem anchor_real (X : FVec Ideal S16x2048x256 .f32) (P Q : FVec Ideal S16x256 .f32)
    (h : fn (F := Ideal) X P Q = fun _ => 1#1) (i : S16x2048x256.Idx) : IsReal (X i) := by
  have h0 := congrFun h ix0
  dsimp only [fn] at h0
  obtain ⟨h1, -⟩ := IntOp.andi_eq_one.1 h0
  obtain ⟨h2, -⟩ := IntOp.andi_eq_one.1 h1
  have h3 := Host.reduce_andi_all _ _ _ _ ix0 h2 i
  have h4 : Ideal.cmp .olt (max (X i) (-(X i))) (Ideal.ofBits .f32 0x7F800000#32) = 1#1 := h3
  rw [Literals.inf] at h4
  refine isReal_of_abs_lt_top _ ?_
  by_contra hn
  simp [Ideal.cmp, hn] at h4

end Cert.Pre_finite_inputs.Finite

end
-- ==== Proof.KernelBlock.lean ====
/-
  What the kernel body stores at one grid point. It loads a slab x of 2048 rows of 256 coordinates (a
  [1, 2048, 256] block) and two points p, q (each a [1, 1, 256] block) and stores one number, as a [1, 1, 1]
  block: the hinge of the two cross-energies of the slab. The two lane sums (over the 256 coordinates, then
  over the 2048 rows) are plain sums on the extended reals; the broadcast of a point over the rows reads the
  point's one row; the shape casts do not move anything.
-/
import proofs.«150309_j84490596647160_1_alg».proof.Proof.Gen.KernelIdeal.Skeleton
import proofs.«150309_j84490596647160_1_alg».proof.Proof.EnergyHinge
import proofs.«150309_j84490596647160_1_alg».proof.Proof.Literals
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen
open Idealize.ShloMosaic Idealize.ShloMosaic.ValueIdx Cert.EnergyHinge

/-- The rows of a loaded slab, and a loaded point. -/
abbrev rows (x : FVec Ideal S1x2048x256 .f32) : Fin 2048 → Fin 256 → EReal := fun r d => x (ix3 (0 : Fin 1) r d)
abbrev pt (y : FVec Ideal S1x1x256 .f32) : Fin 256 → EReal := fun d => y (ix3 (0 : Fin 1) (0 : Fin 1) d)

/-- A point broadcast over the rows reads, at row r and coordinate d, the point at d. -/
theorem bcastPoint_apply (y : FVec Ideal S1x1x256 .f32) (r : Fin 2048) (d : Fin 256) :
    broadcastTo S1x2048x256 (shapeCast S1x1x256 y shapeCasts_S1x1x256_S1x1x256) broadcasts_S1x1x256_S1x2048x256
      (ix3 (0 : Fin 1) r d) = y (ix3 (0 : Fin 1) (0 : Fin 1) d) := by
  rw [shapeCast_self]
  refine broadcastTo_apply y _ (ix3 (0 : Fin 1) r d) (ix3 (0 : Fin 1) (0 : Fin 1) d) fun a => ?_
  match a with
  | ⟨0, _⟩ => rfl
  | ⟨1, _⟩ => rfl
  | ⟨2, _⟩ => rfl

/-- The lane sum over the 256 coordinates, at row r. -/
theorem sumCoords_apply (src : FVec Ideal S1x2048x256 .f32) (hφ : FKind.Formats .f32)
    (hacc : (0x00000000#32 : BitVec 32) = FKind.add.neutral .f32 hφ) (r : Fin 2048) :
    multiReduction .add [2] S1x2048 src 0x00000000#32 reduces_S1x2048x256_S1x2048 hφ hacc (ix2 (0 : Fin 1) r)
      = ∑ d : Fin 256, src (ix3 (0 : Fin 1) r d) :=
  (Ideal.multiReduction_add_single src _ reduces_S1x2048x256_S1x2048 hφ hacc (ix2 (0 : Fin 1) r)).trans
    (Finset.sum_congr rfl fun d _ => congrArg src (funext fun a => Fin.ext (by
      match a with | ⟨0, _⟩ => rfl | ⟨1, _⟩ => rfl | ⟨2, _⟩ => rfl)))

/-- The lane sum over the 2048 rows. -/
theorem sumRows_apply (src : FVec Ideal S1x2048 .f32) (hφ : FKind.Formats .f32)
    (hacc : (0x00000000#32 : BitVec 32) = FKind.add.neutral .f32 hφ) :
    multiReduction .add [1] S1 src 0x00000000#32 reduces_S1x2048_S1 hφ hacc (ix1 (0 : Fin 1))
      = ∑ r : Fin 2048, src (ix2 (0 : Fin 1) r) :=
  (Ideal.multiReduction_add_single src _ reduces_S1x2048_S1 hφ hacc (ix1 (0 : Fin 1))).trans
    (Finset.sum_congr rfl fun r _ => congrArg src (funext fun a => Fin.ext (by
      match a with | ⟨0, _⟩ => rfl | ⟨1, _⟩ => rfl)))

/-- Twice the mean distance from the slab's rows to a point, as the body computes it. -/
theorem cross_apply (x : FVec Ideal S1x2048x256 .f32) (y : FVec Ideal S1x1x256 .f32) (hφ : FKind.Formats .f32)
    (hacc : (0x00000000#32 : BitVec 32) = FKind.add.neutral .f32 hφ) :
    divf (mulf (broadcast S1 (FloatOps.ofBits (F := Ideal) .f32 0x40000000#32))
        (multiReduction .add [1] S1 (sqrt (multiReduction .add [2] S1x2048
          (mulf (subf x (broadcastTo S1x2048x256 (shapeCast S1x1x256 y shapeCasts_S1x1x256_S1x1x256) broadcasts_S1x1x256_S1x2048x256))
                (subf x (broadcastTo S1x2048x256 (shapeCast S1x1x256 y shapeCasts_S1x1x256_S1x1x256) broadcasts_S1x1x256_S1x2048x256)))
          0x00000000#32 reduces_S1x2048x256_S1x2048 hφ hacc)) 0x00000000#32 reduces_S1x2048_S1 hφ hacc))
      (broadcast S1 (FloatOps.ofBits (F := Ideal) .f32 0x45000000#32)) (ix1 (0 : Fin 1))
      = crossEnergy (rows x) (pt y) := by
  rw [divf_apply, mulf_apply, broadcast_apply, broadcast_apply, sumRows_apply]
  unfold crossEnergy
  refine congrArg (fun s => Ideal.div (_ * s) _) (Finset.sum_congr rfl fun r _ => ?_)
  show Ideal.sqrt (multiReduction (F := Ideal) .add [2] S1x2048 _ 0x00000000#32 reduces_S1x2048x256_S1x2048 hφ hacc (ix2 (0 : Fin 1) r)) = _
  rw [sumCoords_apply]
  refine congrArg Ideal.sqrt (Finset.sum_congr rfl fun d _ => ?_)
  rw [mulf_apply, subf_apply, bcastPoint_apply]

/-- THE STORED NUMBER: the hinge of the loaded slab and points. -/
theorem stored_eq (x : Vec Ideal S1x2048x256 .f32) (p q : Vec Ideal S1x1x256 .f32) (j : S1x1x1.Idx) :
    k0_pay1 (F := Ideal) x p q j = hinge (rows x) (pt p) (pt q) := by
  unfold k0_pay1
  dsimp only
  rw [shapeCast_apply _ shapeCasts_S1_S1x1x1 j (ix1 (0 : Fin 1)) (by
    have h1 : (S1.rowMajor (ix1 (0 : Fin 1))).val < 1 := (S1.rowMajor _).isLt
    have h2 : (S1x1x1.rowMajor j).val < 1 := (S1x1x1.rowMajor j).isLt
    omega)]
  rw [maximumf_apply, addf_apply, subf_apply, broadcast_apply, broadcast_apply]
  unfold hinge
  exact congrArg₂ max
    (congrArg (· + Ideal.ofBits .f32 0x40A00000#32) (congrArg₂ (· - ·) (cross_apply x p _ _) (cross_apply x q _ _)))
    Literals.zero

end Cert.KernelIdeal.BlockValue

end
-- ==== Proof.KernelArray.lean ====
/-
  The kernel's output array after the region. Grid point t works on batch element t: it fetches rows
  (t, *, *) of the anchor array and row (t, 0, *) of each of the two point arrays (the [16, 256] inputs viewed
  as [16, 1, 256]: same entries, one more unit axis), and writes back entry (t, 0, 0) of the [16, 1, 1] output.
  What it writes is the hinge of that batch element. The 16 one-entry blocks are all of the output array, so
  after the region the output array holds, at (b, 0, 0), the hinge of batch element b.
-/
import proofs.«150309_j84490596647160_1_alg».proof.Proof.Gen.KernelIdeal.Frame
import proofs.«150309_j84490596647160_1_alg».proof.Proof.KernelBlock
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockValue
open Idealize.ShloMosaic.ValueIdx Cert.EnergyHinge

variable (m : (ℓ : Loc nD τ sig) → Buf (Elt Ideal) ℓ)

/-- The hinge of batch element b of three whole arrays. -/
def hingeAt (X : S16x2048x256.Idx → EReal) (P Q : S16x256.Idx → EReal) (b : Fin 16) : EReal :=
  hinge (fun r d => X (ix3 b r d)) (fun d => P (ix2 b d)) (fun d => Q (ix2 b d))

/-- The output array: at (b, 0, 0) the hinge of batch element b. -/
def hingeArr (X : S16x2048x256.Idx → EReal) (P Q : S16x256.Idx → EReal) : S16x1x1.Idx → EReal :=
  fun i => hingeAt X P Q (i 0)

theorem zeroOffsets : (![0, 0, 0] : Fin 3 → Nat) = fun _ => 0 := funext fun a => by fin_cases a <;> rfl

/-- Every window's block index at point t is (t, 0, 0). -/
theorem blockIndex : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch element a grid point works on. -/
def batch (t : Fin cfg0.N) : Fin 16 := ⟨t.val, by have := t.isLt; have hN : cfg0.N = 16 := N_0; omega⟩

/-! ## The two point arrays, as the region finds them -/

/-- The positive points, as the region finds them: the input with a unit axis inserted. -/
theorem posArr_eq (c : Dev nD) :
    (V m c main_v0 : S16x1x256.Idx → EReal)
      = shapeCast S16x1x256 (m ((c : Thread nD τ).loc main_arg1) : S16x256.Idx → EReal) shapeCasts_S16x256_S16x1x256 := by
  show StableHlo.after hostOps0 (fun b => m (c, b)) (Proc.devRef .tc main_v0) = _
  after_results
  rfl

theorem negArr_eq (c : Dev nD) :
    (V m c main_v1 : S16x1x256.Idx → EReal)
      = shapeCast S16x1x256 (m ((c : Thread nD τ).loc main_arg2) : S16x256.Idx → EReal) shapeCasts_S16x256_S16x1x256 := by
  show StableHlo.after hostOps0 (fun b => m (c, b)) (Proc.devRef .tc main_v1) = _
  after_results
  rfl

/-- Inserting the unit axis moves nothing: entry (b, 0, d) is entry (b, d). -/
theorem insertUnit_apply (P : S16x256.Idx → EReal) (b : Fin 16) (d : Fin 256) :
    shapeCast S16x1x256 P shapeCasts_S16x256_S16x1x256 (ix3 b (0 : Fin 1) d) = P (ix2 b d) :=
  shapeCast_apply P shapeCasts_S16x256_S16x1x256 (ix3 b (0 : Fin 1) d) (ix2 b d) (by
    rw [Shape.rowMajor_val_two, Shape.rowMajor_val_three]
    show b.val * 256 + d.val = (b.val * 1 + 0) * 256 + d.val
    omega)

/-! ## The blocks read -/

/-- The slab of point t is the rows of batch element t. -/
theorem anchorBlock_apply (c : Dev nD) (t : Fin cfg0.N) (r : Fin 2048) (d : Fin 256) :
    (iblk m c 0 t : Vec Ideal S1x2048x256 .f32) (ix3 (0 : Fin 1) r d)
      = (m ((c : Thread nD τ).loc main_arg0) : S16x2048x256.Idx → EReal) (ix3 (batch t) r d) := by
  obtain ⟨⟨e0, e1, e2⟩, -⟩ := blockIndex t
  have h : ((cfg0.win 0).blk t).view.emb (ix3 (0 : Fin 1) r d) = ix3 (batch t) r d := by
    funext a; apply Fin.ext
    match a with
    | ⟨0, _⟩ => show win0_0.index t (0 : Fin 3) * 1 + 1 * 0 = t.val; omega
    | ⟨1, _⟩ => show win0_0.index t (1 : Fin 3) * 2048 + 1 * r.val = r.val; omega
    | ⟨2, _⟩ => show win0_0.index t (2 : Fin 3) * 256 + 1 * d.val = d.val; omega
  show V m c main_arg0 (((cfg0.win 0).blk t).view.emb (ix3 (0 : Fin 1) r d)) = _
  rw [h, V_main_arg0]

/-- The positive point of point t is the point of batch element t. -/
theorem posBlock_apply (c : Dev nD) (t : Fin cfg0.N) (d : Fin 256) :
    (iblk m c 1 t : Vec Ideal S1x1x256 .f32) (ix3 (0 : Fin 1) (0 : Fin 1) d)
      = (m ((c : Thread nD τ).loc main_arg1) : S16x256.Idx → EReal) (ix2 (batch t) d) := by
  obtain ⟨-, ⟨e0, e1, e2⟩, -⟩ := blockIndex t
  have h : ((cfg0.win 1).blk t).view.emb (ix3 (0 : Fin 1) (0 : Fin 1) d) = ix3 (batch t) (0 : Fin 1) d := by
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 256 + 1 * d.val = d.val; omega
  show V m c main_v0 (((cfg0.win 1).blk t).view.emb (ix3 (0 : Fin 1) (0 : Fin 1) d)) = _
  rw [h, posArr_eq, insertUnit_apply]

/-- The negative point of point t likewise. -/
theorem negBlock_apply (c : Dev nD) (t : Fin cfg0.N) (d : Fin 256) :
    (iblk m c 2 t : Vec Ideal S1x1x256 .f32) (ix3 (0 : Fin 1) (0 : Fin 1) d)
      = (m ((c : Thread nD τ).loc main_arg2) : S16x256.Idx → EReal) (ix2 (batch t) d) := by
  obtain ⟨-, -, ⟨e0, e1, e2⟩, -⟩ := blockIndex t
  have h : ((cfg0.win 2).blk t).view.emb (ix3 (0 : Fin 1) (0 : Fin 1) d) = ix3 (batch t) (0 : Fin 1) d := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 256 + 1 * d.val = d.val; omega
  show V m c main_v1 (((cfg0.win 2).blk t).view.emb (ix3 (0 : Fin 1) (0 : Fin 1) d)) = _
  rw [h, negArr_eq, insertUnit_apply]

/-- The one entry of the output block of point t is entry (t, 0, 0) of the output array. -/
theorem outBlock_batch (t : Fin cfg0.N) (j : S1x1x1.Idx) : (((cfg0.win 3).blk t).view.emb j) 0 = batch t := by
  obtain ⟨-, -, -, ⟨e0, e1, e2⟩⟩ := blockIndex t
  have hj : (j 0).val < 1 := (j 0).isLt
  apply Fin.ext
  show win0_3.index t (0 : Fin 3) * 1 + 1 * (j 0).val = t.val
  omega

/-! ## What a point writes back, and the array after the region -/

/-- WHAT POINT t WRITES BACK is its block of the array of hinges. -/
theorem flushed_eq (c : Dev nD) (t : Fin cfg0.N) :
    (dats m 0 c).flushed 3 t = ((cfg0.win 3).blk t).view.read (Elt Ideal)
      (hingeArr (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zeroOffsets]
  simp only [View.ld_unit_zero (S := S1x2048x256) zeroOffsets, View.ld_unit_zero (S := S1x1x256) zeroOffsets]
  funext j
  refine (stored_eq _ _ _ j).trans ?_
  have ex : rows (iblk m c 0 t) = fun r d => (m ((c : Thread nD τ).loc main_arg0) : S16x2048x256.Idx → EReal) (ix3 (batch t) r d) :=
    funext fun r => funext fun d => anchorBlock_apply m c t r d
  have ep : pt (iblk m c 1 t) = fun d => (m ((c : Thread nD τ).loc main_arg1) : S16x256.Idx → EReal) (ix2 (batch t) d) :=
    funext fun d => posBlock_apply m c t d
  have eq : pt (iblk m c 2 t) = fun d => (m ((c : Thread nD τ).loc main_arg2) : S16x256.Idx → EReal) (ix2 (batch t) d) :=
    funext fun d => negBlock_apply m c t d
  show hinge (rows (iblk m c 0 t)) (pt (iblk m c 1 t)) (pt (iblk m c 2 t)) = _
  rw [ex, ep, eq]
  show hingeAt _ _ _ (batch t) = hingeAt _ _ _ ((((cfg0.win 3).blk t).view.emb j) 0)
  rw [outBlock_batch]

/-- An index of the output array is in point t's block iff each coordinate is in the block's range. -/
theorem mem_blk (t : Fin cfg0.N) (i : S16x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2).slice (win0_3.rect t)).set ↔ _
  rw [View.set_slice_whole, Rect.mem_set_unit]
  exact Iff.rfl

/-- Every entry of the output array is written back by the point of its batch element. -/
theorem covered (i : S16x1x1.Idx) : ∃ t : Fin cfg0.N, (cfg0.win 3).flush t = true ∧ i ∈ ((cfg0.win 3).blk t).view.set := by
  have hN : cfg0.N = 16 := N_0
  have hi0 : (i 0).val < 16 := (i 0).isLt
  have hi1 : (i 1).val < 1 := (i 1).isLt
  have hi2 : (i 2).val < 1 := (i 2).isLt
  obtain ⟨t, ht⟩ : ∃ t : Fin cfg0.N, t.val = (i 0).val := ⟨⟨(i 0).val, by omega⟩, rfl⟩
  obtain ⟨-, -, -, ⟨e0, e1, e2⟩⟩ := blockIndex t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- THE OUTPUT ARRAY after the region is the array of hinges. -/
theorem final (c : Dev nD) :
    (dats m 0 c).arrAt 3 cfg0.N
      = hingeArr (m ((c : Thread nD τ).loc main_arg0)) (m ((c : Thread nD τ).loc main_arg1)) (m ((c : Thread nD τ).loc main_arg2)) :=
  (dats m 0 c).arrAt_eq_of_cover 3 _ (fun t _ => flushed_eq m c t) covered

end Cert.KernelIdeal.ArrayValue

end
-- ==== Proof.KernelRun.lean ====
/-
  The kernel program's result. After the region the host adds up the 16 entries of the output array, from
  the initial value zero, and divides by 16: the mean of the hinge over the batch. So every weakly fair
  execution of the kernel program ends with the result at `meanHinge` of the three argument arrays, and
  with the argument arrays as they were.
-/
import proofs.«150309_j84490596647160_1_alg».proof.Proof.Gen.KernelIdeal.Frame
import proofs.«150309_j84490596647160_1_alg».proof.Proof.KernelArray
import proofs.«150309_j84490596647160_1_alg».proof.Proof.BatchSums
import proofs.«150309_j84490596647160_1_alg».proof.Proof.Literals
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.ArrayValue
open Idealize.ShloMosaic.ValueIdx Cert.EnergyHinge

variable (m : (ℓ : Loc nD τ sig) → Buf (Elt Ideal) ℓ) (ρ : Dev nD → PrngReg)

/-- The mean of the array of hinges is the mean hinge. -/
theorem mean_hingeArr (X : S16x2048x256.Idx → EReal) (P Q : S16x256.Idx → EReal) (i : S_.Idx) :
    Host.divf (F := Ideal) (Host.reduceAdd (F := Ideal) (hingeArr X P Q) (constant (F := Ideal) S_ .f32 0x00000000#32) reducesTo_S16x1x1_S_d0_1_2 h_S_)
      (constant (F := Ideal) S_ .f32 0x41800000#32) i = meanHinge X P Q := by
  show FloatOps.hostDivf (Host.reduceAdd (F := Ideal) (hingeArr X P Q) (constant (F := Ideal) S_ .f32 0x00000000#32) reducesTo_S16x1x1_S_d0_1_2 h_S_ i)
      (constant (F := Ideal) S_ .f32 0x41800000#32 i) = _
  simp only [Host.reduceAdd, Ideal.hostReduceAdd_def, Ideal.hostDivf_def]
  rw [Ideal.hostReduceAdd_total reducesTo_S16x1x1_S_d0_1_2 (fun b => b.elim0), BatchSums.sum_idx3_unit]
  simp only [constant_apply, Literals.zero, zero_add]
  rfl

/-- THE RESULT after the host's mean. -/
theorem tail_eq (c : Dev nD) :
    Pipeline.afterTail₀ cfgs (dats m) 0 (V0 m) [hostOps1] c main_v4
      = fun _ => meanHinge (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v2)
      = hingeArr (m ((c : Thread nD τ).loc main_arg0)) (m ((c : Thread nD τ).loc main_arg1)) (m ((c : Thread nD τ).loc main_arg2)) :=
    (Pipeline.withArrays_arr spec0 launch0.win.arr_inj c _ _ 3).trans (final m c)
  rw [harr]
  exact funext fun i => mean_hingeArr _ _ _ i

/-- THE RUN of the kernel program, read: the result at the mean hinge, the arguments unchanged. -/
theorem run : θ_run defs (onTc (τ := τ) (main (F := Ideal))) ⟨m, fun _ => 0, ρ⟩ fun r => ∀ c : Dev nD,
      r.2.mem ((c.tc : Thread nD τ).loc main_v4)
        = (fun _ => meanHinge (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RunValue

end
-- ==== Proof.lean ====
/-
  The kernel and the reference compute the same number on the extended reals, for finite inputs.

  Both take an anchor array x of 16 batch elements of 2048 rows in R^256 and two arrays p, q of 16 points in
  R^256. For a batch element write c(y) = (2 * sum_r ||x_r - y||) / 2048, twice the mean distance from its
  rows to y. The reference forms, per batch element, the two energy distances c(p) - e and c(q) - e, where
  the self-energy e is the mean distance between all pairs of rows, and returns the mean over the batch of
  max ((c(p) - e) - (c(q) - e) + 5) 0. The kernel never computes e: per batch element it stores
  max (c(p) - c(q) + 5) 0, and the host takes the mean.

  The two agree because e is a REAL number when the entries of x are (the precondition): a real subtracted
  from both cancels, on the extended reals as on the reals, whereas an infinite e would not. The norms agree
  because a sum of squares is nonnegative, where the reference's guarded square root is the plain one. The
  modules: EnergyHinge (the mathematics), Literals (the few float literals whose value matters), RefCross,
  RefSelfEnergy and RefMean (the reference's result is the mean hinge), FiniteAnchor (the precondition gives
  the real entries), KernelBlock, KernelArray and KernelRun (so is the kernel's), BatchSums (sums over the batch).

  The three frames are the generated ones; the idealized kernel is the kernel's own text read at the ideal
  instance, so there is nothing to preserve.
-/
import proofs.«150309_j84490596647160_1_alg».proof.Defs
import proofs.«150309_j84490596647160_1_alg».proof.Proof.Gen.Kernel
import proofs.«150309_j84490596647160_1_alg».proof.Proof.Gen.Kernel.Skeleton
import proofs.«150309_j84490596647160_1_alg».proof.Proof.Gen.Kernel.Launch
import proofs.«150309_j84490596647160_1_alg».proof.Proof.Gen.Kernel.Points
import proofs.«150309_j84490596647160_1_alg».proof.Proof.Gen.Kernel.Frame
import proofs.«150309_j84490596647160_1_alg».proof.Proof.Gen.KernelIdeal
import proofs.«150309_j84490596647160_1_alg».proof.Proof.Gen.KernelIdeal.Skeleton
import proofs.«150309_j84490596647160_1_alg».proof.Proof.Gen.KernelIdeal.Launch
import proofs.«150309_j84490596647160_1_alg».proof.Proof.Gen.KernelIdeal.Points
import proofs.«150309_j84490596647160_1_alg».proof.Proof.Gen.KernelIdeal.Frame
import proofs.«150309_j84490596647160_1_alg».proof.Proof.Gen.ReferenceIdeal
import proofs.«150309_j84490596647160_1_alg».proof.Proof.Gen.ReferenceIdeal.Run
import proofs.«150309_j84490596647160_1_alg».proof.Proof.Gen.ReferenceIdeal.Read
import proofs.«150309_j84490596647160_1_alg».proof.Proof.Gen.Pre_finite_inputs
import proofs.«150309_j84490596647160_1_alg».proof.Proof.RefMean
import proofs.«150309_j84490596647160_1_alg».proof.Proof.FiniteAnchor
import proofs.«150309_j84490596647160_1_alg».proof.Proof.KernelRun
import Idealize.ShloMosaic.Adequacy
import Idealize.ShloMosaic.Init

noncomputable section

namespace Cert.Proof

open Idealize.ShloMosaic Idealize.SL.Sem Cert.EnergyHinge

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the mean hinge of the argument arrays: the kernel's run gives it outright, the
    reference's once the anchor array's entries are known to be real numbers, which the precondition says of
    the kernel's memory and the agreement of the two memories carries over. -/
theorem algebraic : Cert.algebraic_KernelIdeal_ReferenceIdeal := by
  intro m ρ m' ρ' hpre hagree
  refine ⟨fun c _ => meanHinge
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  have hreal : ∀ i, IsReal (m' ((c.tc : Thread Cert.ReferenceIdeal.nD Cert.ReferenceIdeal.τ).loc Cert.ReferenceIdeal.main_arg0) i) := by
    rw [(hagree c).1]
    exact Cert.Pre_finite_inputs.Finite.anchor_real _ _ _ (hpre c)
  rw [(h c).1, Cert.ReferenceIdeal.Read.val_main_v62_eq, Cert.ReferenceIdeal.RefValue.result_eq _ _ _ hreal,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
